-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x512 : Shape := ⟨3, ![128, 1024, 512]⟩
abbrev S1024x512 : Shape := ⟨2, ![1024, 512]⟩
abbrev S128x512 : Shape := ⟨2, ![128, 512]⟩
abbrev S_ : Shape := ⟨0, ![]⟩

class Facts : Prop where
  bcast_S_S128x1024x512 : S_.BroadcastsInDim S128x1024x512 (![] : Fin 0 → Fin S128x1024x512.rank)
  reducesTo_S128x1024x512_S_d0_1_2 : S128x1024x512.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  main_v18

def fn {F : FTy → Type} [FloatOps F] (main_arg0 : FVec F S128x1024x512 .f32) (main_arg1 : FVec F S1024x512 .f32) (main_arg2 : FVec F S128x512 .f32) (main_arg3 : FVec F S128x512 .f32) : IVec S_ 1 :=
  let main_v0 : FVec F S128x1024x512 .f32 := Host.absf main_arg0
  let main_cst : FVec F S_ .f32 := constant S_ .f32 0x7F800000#32
  let main_v1 : FVec F S128x1024x512 .f32 := broadcastInDim S128x1024x512 ![] bcast_S_S128x1024x512 main_cst
  let main_v2 : IVec S128x1024x512 1 := cmpf .olt main_v0 main_v1
  let main_c : IVec S_ 1 := constantI S_ 1 1#1
  let main_v3 : IVec S_ 1 := (fun x v => Host.reduce IntOp.andi x v reducesTo_S128x1024x512_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_v13 main_v16
-- ==== Kernel.lean ====
abbrev S128x1024x512 : Shape := ⟨3, ![128, 1024, 512]⟩
abbrev S1024x512 : Shape := ⟨2, ![1024, 512]⟩
abbrev S128x512 : Shape := ⟨2, ![128, 512]⟩
abbrev S32x256x512 : Shape := ⟨3, ![32, 256, 512]⟩
abbrev S32x512 : Shape := ⟨2, ![32, 512]⟩
abbrev S32x32x512 : Shape := ⟨3, ![32, 32, 512]⟩
abbrev S1x32x512 : Shape := ⟨3, ![1, 32, 512]⟩

abbrev nBuf : Space → Nat
  | .hbm => 6
  | .vmem => 11
  | .smem => 0
  | _ => 0

abbrev bufTy : (tb : Table) → Fin (tcTables nBuf tb) → BufTy
  | .hbm, ⟨0, _⟩ => ⟨S128x1024x512, .f32⟩
  | .hbm, ⟨1, _⟩ => ⟨S1024x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .local _ .vmem, ⟨0, _⟩ => ⟨S32x256x512, .f32⟩
  | .local _ .vmem, ⟨1, _⟩ => ⟨S32x256x512, .f32⟩
  | .local _ .vmem, ⟨2, _⟩ => ⟨S1024x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | _, _ => ⟨S128x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_mult2 : BitVec 32 :=
  let c0_i32_1 : BitVec 32 := 0#32
  let c32_i32 : BitVec 32 := 32#32
  let v6 : BitVec 32 := Scalar.muli c0_i32_1 c32_i32
  v6
def k0_mult3 (i : grid0.Coords) : BitVec 32 :=
  let arg1 : BitVec 32 := BitVec.ofNat 32 (i 1).val
  let c256_i32 : BitVec 32 := 256#32
  let v3 : BitVec 32 := Scalar.muli arg1 c256_i32
  let v4 : BitVec 32 := v3
  let c0_i32_1 : BitVec 32 := 0#32
  let c32_i32 : BitVec 32 := 32#32
  let v6 : BitVec 32 := Scalar.muli c0_i32_1 c32_i32
  let v7 : BitVec 32 := v6
  let v8 : BitVec 32 := Scalar.addi v4 v7
  v8
def k0_off1 (c0_i32_1 : BitVec 32) : Fin 3 → Nat :=
  let c0 : Index := 0#32
  let c32_i32 : BitVec 32 := 32#32
  let v6 : BitVec 32 := Scalar.muli c0_i32_1 c32_i32
  let v7 : BitVec 32 := v6
  let v10 : Index := Scalar.indexCast v7
  let c0_2 : Index := 0#32
  ![0, v10.toNat, 0]
def k0_off2 (i : grid0.Coords) (c0_i32_1 : BitVec 32) : Fin 2 → Nat :=
  let arg1 : BitVec 32 := BitVec.ofNat 32 (i 1).val
  let c256_i32 : BitVec 32 := 256#32
  let v3 : BitVec 32 := Scalar.muli arg1 c256_i32
  let v4 : BitVec 32 := v3
  let c32_i32 : BitVec 32 := 32#32
  let v6 : BitVec 32 := Scalar.muli c0_i32_1 c32_i32
  let v7 : BitVec 32 := v6
  let v8 : BitVec 32 := Scalar.addi v4 v7
  let v9 : BitVec 32 := v8
  let v12 : Index := Scalar.indexCast v9
  let c0_3 : Index := 0#32
  ![v12.toNat, 0]
def k0_mult4 : BitVec 32 :=
  let c1_i32 : BitVec 32 := 1#32
  let c32_i32_5 : BitVec 32 := 32#32
  let v19 : BitVec 32 := Scalar.muli c1_i32 c32_i32_5
  v19
def k0_mult5 (i : grid0.Coords) : BitVec 32 :=
  let arg1 : BitVec 32 := BitVec.ofNat 32 (i 1).val
  let c256_i32 : BitVec 32 := 256#32
  let v3 : BitVec 32 := Scalar.muli arg1 c256_i32
  let v4 : BitVec 32 := v3
  let c1_i32 : BitVec 32 := 1#32
  let c32_i32_5 : BitVec 32 := 32#32
  let v19 : BitVec 32 := Scalar.muli c1_i32 c32_i32_5
  let v20 : BitVec 32 := v19
  let v21 : BitVec 32 := Scalar.addi v4 v20
  v21
def k0_mult6 : BitVec 32 :=
  let c2_i32 : BitVec 32 := 2#32
  let c32_i32_10 : BitVec 32 := 32#32
  let v32 : BitVec 32 := Scalar.muli c2_i32 c32_i32_10
  v32
def k0_mult7 (i : grid0.Coords) : BitVec 32 :=
  let arg1 : BitVec 32 := BitVec.ofNat 32 (i 1).val
  let c256_i32 : BitVec 32 := 256#32
  let v3 : BitVec 32 := Scalar.muli arg1 c256_i32
  let v4 : BitVec 32 := v3
  let c2_i32 : BitVec 32 := 2#32
  let c32_i32_10 : BitVec 32 := 32#32
  let v32 : BitVec 32 := Scalar.muli c2_i32 c32_i32_10
  let v33 : BitVec 32 := v32
  let v34 : BitVec 32 := Scalar.addi v4 v33
  v34
def k0_mult8 : BitVec 32 :=
  let c3_i32 : BitVec 32 := 3#32
  let c32_i32_15 : BitVec 32 := 32#32
  let v45 : BitVec 32 := Scalar.muli c3_i32 c32_i32_15
  v45
def k0_mult9 (i : grid0.Coords) : BitVec 32 :=
  let arg1 : BitVec 32 := BitVec.ofNat 32 (i 1).val
  let c256_i32 : BitVec 32 := 256#32
  let v3 : BitVec 32 := Scalar.muli arg1 c256_i32
  let v4 : BitVec 32 := v3
  let c3_i32 : BitVec 32 := 3#32
  let c32_i32_15 : BitVec 32 := 32#32
  let v45 : BitVec 32 := Scalar.muli c3_i32 c32_i32_15
  let v46 : BitVec 32 := v45
  let v47 : BitVec 32 := Scalar.addi v4 v46
  v47
def k0_mult10 : BitVec 32 :=
  let c4_i32 : BitVec 32 := 4#32
  let c32_i32_20 : BitVec 32 := 32#32
  let v58 : BitVec 32 := Scalar.muli c4_i32 c32_i32_20
  v58
def k0_mult11 (i : grid0.Coords) : BitVec 32 :=
  let arg1 : BitVec 32 := BitVec.ofNat 32 (i 1).val
  let c256_i32 : BitVec 32 := 256#32
  let v3 : BitVec 32 := Scalar.muli arg1 c256_i32
  let v4 : BitVec 32 := v3
  let c4_i32 : BitVec 32 := 4#32
  let c32_i32_20 : BitVec 32 := 32#32
  let v58 : BitVec 32 := Scalar.muli c4_i32 c32_i32_20
  let v59 : BitVec 32 := v58
  let v60 : BitVec 32 := Scalar.addi v4 v59
  v60
def k0_mult12 : BitVec 32 :=
  let c5_i32 : BitVec 32 := 5#32
  let c32_i32_25 : BitVec 32 := 32#32
  let v71 : BitVec 32 := Scalar.muli c5_i32 c32_i32_25
  v71
def k0_mult13 (i : grid0.Coords) : BitVec 32 :=
  let arg1 : BitVec 32 := BitVec.ofNat 32 (i 1).val
  let c256_i32 : BitVec 32 := 256#32
  let v3 : BitVec 32 := Scalar.muli arg1 c256_i32
  let v4 : BitVec 32 := v3
  let c5_i32 : BitVec 32 := 5#32
  let c32_i32_25 : BitVec 32 := 32#32
  let v71 : BitVec 32 := Scalar.muli c5_i32 c32_i32_25
  let v72 : BitVec 32 := v71
  let v73 : BitVec 32 := Scalar.addi v4 v72
  v73
def k0_mult14 : BitVec 32 :=
  let c6_i32 : BitVec 32 := 6#32
  let c32_i32_30 : BitVec 32 := 32#32
  let v84 : BitVec 32 := Scalar.muli c6_i32 c32_i32_30
  v84
def k0_mult15 (i : grid0.Coords) : BitVec 32 :=
  let arg1 : BitVec 32 := BitVec.ofNat 32 (i 1).val
  let c256_i32 : BitVec 32 := 256#32
  let v3 : BitVec 32 := Scalar.muli arg1 c256_i32
  let v4 : BitVec 32 := v3
  let c6_i32 : BitVec 32 := 6#32
  let c32_i32_30 : BitVec 32 := 32#32
  let v84 : BitVec 32 := Scalar.muli c6_i32 c32_i32_30
  let v85 : BitVec 32 := v84
  let v86 : BitVec 32 := Scalar.addi v4 v85
  v86
def k0_mult16 : BitVec 32 :=
  let c7_i32 : BitVec 32 := 7#32
  let c32_i32_35 : BitVec 32 := 32#32
  let v97 : BitVec 32 := Scalar.muli c7_i32 c32_i32_35
  v97
def k0_mult17 (i : grid0.Coords) : BitVec 32 :=
  let arg1 : BitVec 32 := BitVec.ofNat 32 (i 1).val
  let c256_i32 : BitVec 32 := 256#32
  let v3 : BitVec 32 := Scalar.muli arg1 c256_i32
  let v4 : BitVec 32 := v3
  let c7_i32 : BitVec 32 := 7#32
  let c32_i32_35 : BitVec 32 := 32#32
  let v97 : BitVec 32 := Scalar.muli c7_i32 c32_i32_35
  let v98 : BitVec 32 := v97
  let v99 : BitVec 32 := Scalar.addi v4 v98
  v99
def k0_cond2 (i : grid0.Coords) : BitVec 1 :=
  let arg1 : BitVec 32 := BitVec.ofNat 32 (i 1).val
  let c3_i32_44 : BitVec 32 := 3#32
  let v114 : BitVec 1 := Scalar.cmpi .eq arg1 c3_i32_44
  let v115 : BitVec 32 := Scalar.extui v114
  let c0_i32_45 : BitVec 32 := 0#32
  let v116 : BitVec 1 := Scalar.cmpi .ne v115 c0_i32_45
  v116

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S32x512_S32x512_0_0 : ∀ a, (![0, 0] : Fin 2 → Nat) a + S32x512.size a ≤ S32x512.size a
  h_S32x512 : 0 < S32x512.numel
  h_S32x32x512 : 0 < S32x32x512.numel
  shapeCasts_S32x512_S1x32x512 : S32x512.ShapeCasts S1x32x512
  broadcasts_S1x32x512_S32x32x512 : S1x32x512.Broadcasts S32x32x512
  reduces_S32x32x512_S32x512 : S32x32x512.Reduces [1] S32x512
  shapeCasts_S32x512_S32x512 : S32x512.ShapeCasts S32x512
  natLt_1_32 : 1 < 32
  hrank0 : 0 < grid0.rank
  k0_mult1_dvd : ∀ i : grid0.Coords, 256 ∣ (k0_mult1 i).toNat
  k0_mult2_dvd : 32 ∣ k0_mult2.toNat
  k0_mult3_dvd : ∀ i : grid0.Coords, 32 ∣ (k0_mult3 i).toNat
  k0_off1_inb : ∀ (r : Fin 8), ∀ a, (k0_off1 (BitVec.ofNat 32 r.val)) a + S32x32x512.size a ≤ S32x256x512.size a
  k0_off2_inb : ∀ i : grid0.Coords, ∀ (r : Fin 8), ∀ a, (k0_off2 i (BitVec.ofNat 32 r.val)) a + S32x512.size a ≤ S1024x512.size a
  k0_mult4_dvd : 32 ∣ k0_mult4.toNat
  k0_mult5_dvd : ∀ i : grid0.Coords, 32 ∣ (k0_mult5 i).toNat
  k0_mult6_dvd : 32 ∣ k0_mult6.toNat
  k0_mult7_dvd : ∀ i : grid0.Coords, 32 ∣ (k0_mult7 i).toNat
  k0_mult8_dvd : 32 ∣ k0_mult8.toNat
  k0_mult9_dvd : ∀ i : grid0.Coords, 32 ∣ (k0_mult9 i).toNat
  k0_mult10_dvd : 32 ∣ k0_mult10.toNat
  k0_mult11_dvd : ∀ i : grid0.Coords, 32 ∣ (k0_mult11 i).toNat
  k0_mult12_dvd : 32 ∣ k0_mult12.toNat
  k0_mult13_dvd : ∀ i : grid0.Coords, 32 ∣ (k0_mult13 i).toNat
  k0_mult14_dvd : 32 ∣ k0_mult14.toNat
  k0_mult15_dvd : ∀ i : grid0.Coords, 32 ∣ (k0_mult15 i).toNat
  k0_mult16_dvd : 32 ∣ k0_mult16.toNat
  k0_mult17_dvd : ∀ i : grid0.Coords, 32 ∣ (k0_mult17 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x512.size a ≤ S128x1024x512.size a
  hwx0_0 : ∀ i : grid0.Coords, EltTy.bits .f32 = 32 ∨ (Rect.block (s := S128x1024x512) S32x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S128x512.size a
  hwx0_2 : ∀ i : grid0.Coords, EltTy.bits .f32 = 32 ∨ (Rect.block (s := S128x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S128x512.size a
  hwx0_3 : ∀ i : grid0.Coords, EltTy.bits .f32 = 32 ∨ (Rect.block (s := S128x512) S32x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S128x512.size a
  hwx0_4 : ∀ i : grid0.Coords, EltTy.bits .f32 = 32 ∨ (Rect.block (s := S128x512) S32x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x512.size a ≤ S128x512.size a
  hwx0_5 : ∀ i : grid0.Coords, EltTy.bits .f32 = 32 ∨ (Rect.block (s := S128x512) S32x512.size (cc0_transform_5 i) (hinb0_5 i)).WholeWords (EltTy.packing .f32)

variable [Facts₀]

abbrev win0_0 : Pipeline.Window sig grid0 :=
  Pipeline.Window.ofSpec (Memref.whole main_arg0) S32x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S32x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S32x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S128x1024x512 : Shape := ⟨3, ![128, 1024, 512]⟩
abbrev S1024x512 : Shape := ⟨2, ![1024, 512]⟩
abbrev S128x512 : Shape := ⟨2, ![128, 512]⟩
abbrev S_ : Shape := ⟨0, ![]⟩
abbrev S1x1024x512 : Shape := ⟨3, ![1, 1024, 512]⟩

abbrev nBuf : Space → Nat
  | .hbm => 24
  | .vmem => 0
  | .smem => 0
  | _ => 0

abbrev bufTy : (tb : Table) → Fin (tcTables nBuf tb) → BufTy
  | .hbm, ⟨0, _⟩ => ⟨S128x1024x512, .f32⟩
  | .hbm, ⟨1, _⟩ => ⟨S1024x512, .f32⟩
  | .hbm, ⟨2, _⟩ => ⟨S128x512, .f32⟩
  | .hbm, ⟨3, _⟩ => ⟨S128x512, .f32⟩
  | .hbm, ⟨4, _⟩ => ⟨S_, .f32⟩
  | .hbm, ⟨5, _⟩ => ⟨S128x512, .f32⟩
  | .hbm, ⟨6, _⟩ => ⟨S128x512, .f32⟩
  | .hbm, ⟨7, _⟩ => ⟨S1x1024x512, .f32⟩
  | .hbm, ⟨8, _⟩ => ⟨S128x1024x512, .f32⟩
  | .hbm, ⟨9, _⟩ => ⟨S128x1024x512, .f32⟩
  | .hbm, ⟨10, _⟩ => ⟨S_, .f32⟩
  | .hbm, ⟨11, _⟩ => ⟨S128x512, .f32⟩
  | .hbm, ⟨12, _⟩ => ⟨S128x512, .f32⟩
  | .hbm, ⟨13, _⟩ => ⟨S_, .f32⟩
  | .hbm, ⟨14, _⟩ => ⟨S128x512, .f32⟩
  | .hbm, ⟨15, _⟩ => ⟨S128x512, .f32⟩
  | .hbm, ⟨16, _⟩ => ⟨S128x512, .f32⟩
  | .hbm, ⟨17, _⟩ => ⟨S_, .f32⟩
  | .hbm, ⟨18, _⟩ => ⟨S128x512, .f32⟩
  | .hbm, ⟨19, _⟩ => ⟨S128x512, .f32⟩
  | .hbm, ⟨20, _⟩ => ⟨S_, .f32⟩
  | .hbm, ⟨21, _⟩ => ⟨S128x512, .f32⟩
  | .hbm, ⟨22, _⟩ => ⟨S128x512, .i1⟩
  | .hbm, ⟨23, _⟩ => ⟨S128x512, .f32⟩
  | _, _ => ⟨S128x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S128x512 : S_.BroadcastsInDim S128x512 (![] : Fin 0 → Fin S128x512.rank)
  bcast_S1024x512_S1x1024x512_1_2 : S1024x512.BroadcastsInDim S1x1024x512 (![1, 2] : Fin 2 → Fin S1x1024x512.rank)
  bcast_S1x1024x512_S128x1024x512_0_1_2 : S1x1024x512.BroadcastsInDim S128x1024x512 (![0, 1, 2] : Fin 3 → Fin S128x1024x512.rank)
  reducesTo_S128x1024x512_S128x512_d1 : S128x1024x512.ReducesTo [1] S128x512
  h_S_ : 0 < S_.numel

variable [Facts₀]

class Facts : Prop extends Facts₀ where

variable [Facts]
-- ==== Proof.Spec.lean ====
/-
  The leaky integrate-and-fire membrane update as ONE function of the argument arrays, index by index, over the
  extended reals, and the re-association that lets a sum over the 1024 input rows be taken run by run.

  For a batch row `r` and a neuron `q` the drive is `∑ j < 1024, x[r, j, q] · w[j, q]`; the new potential is
  `(α · v[r, q] + drive) - θ · z[r, q]` with the two constants kept as the words both programs spell, and the new
  spike is the indicator of `v_new - θ > 0` read back as a float. Addition of extended reals is commutative and
  associative and `0` is neutral for it, so a sum over `a · b` consecutive rows is the sum over `a` runs of `b` rows
  each, whatever the order the runs are added in; no finiteness is needed for that.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Lif

/-! ## Sums over consecutive naturals, run by run -/

/-- A sum over `a * b` consecutive naturals is the sum over `a` runs of `b` naturals each. -/
theorem sum_range_mul {M : Type*} [AddCommMonoid M] (f : ℕ → M) (a b : ℕ) :
    ∑ j ∈ Finset.range (a * b), f j = ∑ s ∈ Finset.range a, ∑ l ∈ Finset.range b, f (b * s + l) := by
  induction a with
  | zero => simp
  | succ a ih => rw [Nat.succ_mul, Finset.sum_range_add, ih, Finset.sum_range_succ, Nat.mul_comm a b]

/-- Eight runs of 32, added first to last from zero, are the sum over 256. -/
theorem eight_runs {M : Type*} [AddCommMonoid M] (f : ℕ → M) :
    ((((((((0 + ∑ l ∈ Finset.range 32, f (32 * 0 + l)) + ∑ l ∈ Finset.range 32, f (32 * 1 + l))
      + ∑ l ∈ Finset.range 32, f (32 * 2 + l)) + ∑ l ∈ Finset.range 32, f (32 * 3 + l))
      + ∑ l ∈ Finset.range 32, f (32 * 4 + l)) + ∑ l ∈ Finset.range 32, f (32 * 5 + l))
      + ∑ l ∈ Finset.range 32, f (32 * 6 + l)) + ∑ l ∈ Finset.range 32, f (32 * 7 + l))
      = ∑ j ∈ Finset.range 256, f j := by
  rw [show (256 : ℕ) = 8 * 32 from rfl, sum_range_mul f 8 32]
  simp only [Finset.sum_range_succ, Finset.sum_range_zero]

/-- Four runs of 256, added first to last from zero, are the sum over 1024. -/
theorem four_runs {M : Type*} [AddCommMonoid M] (f : ℕ → M) :
    ((((0 + ∑ j ∈ Finset.range 256, f (256 * 0 + j)) + ∑ j ∈ Finset.range 256, f (256 * 1 + j))
      + ∑ j ∈ Finset.range 256, f (256 * 2 + j)) + ∑ j ∈ Finset.range 256, f (256 * 3 + j))
      = ∑ j ∈ Finset.range 1024, f j := by
  rw [show (1024 : ℕ) = 4 * 256 from rfl, sum_range_mul f 4 256]
  simp only [Finset.sum_range_succ, Finset.sum_range_zero]

/-! ## The update, index by index -/

/-- Row `j` of the drive's sum at batch row `r`, neuron `q` (the row taken modulo 1024, so that it is a term at every natural). -/
def term (X : (⟨3, ![128, 1024, 512]⟩ : Shape).Idx → EReal) (W : (⟨2, ![1024, 512]⟩ : Shape).Idx → EReal)
    (r : Fin 128) (q : Fin 512) (j : ℕ) : EReal :=
  X (ix3 r ⟨j % 1024, Nat.mod_lt j (by decide)⟩ q) * W (ix2 ⟨j % 1024, Nat.mod_lt j (by decide)⟩ q)

/-- The drive of neuron `q` in batch row `r`: the input rows' products summed. -/
def drive (X : (⟨3, ![128, 1024, 512]⟩ : Shape).Idx → EReal) (W : (⟨2, ![1024, 512]⟩ : Shape).Idx → EReal)
    (r : Fin 128) (q : Fin 512) : EReal :=
  ∑ j ∈ Finset.range 1024, term X W r q j

/-- The sum over the rows themselves is the drive. -/
theorem sum_rows_eq_drive (X : (⟨3, ![128, 1024, 512]⟩ : Shape).Idx → EReal) (W : (⟨2, ![1024, 512]⟩ : Shape).Idx → EReal)
    (r : Fin 128) (q : Fin 512) :
    ∑ k : Fin 1024, X (ix3 r k q) * W (ix2 k q) = drive X W r q := by
  unfold drive
  rw [← Fin.sum_univ_eq_sum_range (term X W r q) 1024]
  refine Finset.sum_congr rfl fun k _ => ?_
  have hk : (⟨k.val % 1024, Nat.mod_lt k.val (by decide)⟩ : Fin 1024) = k := Fin.ext (Nat.mod_eq_of_lt k.isLt)
  unfold term
  rw [hk]

/-- The new membrane potential: the leak, plus the drive, minus the reset of a neuron that spiked. -/
def vNew (X : (⟨3, ![128, 1024, 512]⟩ : Shape).Idx → EReal) (W : (⟨2, ![1024, 512]⟩ : Shape).Idx → EReal)
    (V Z : (⟨2, ![128, 512]⟩ : Shape).Idx → EReal) : (⟨2, ![128, 512]⟩ : Shape).Idx → EReal := fun i =>
  (Ideal.ofBits .f32 0x3F7EB852#32 * V i + drive X W (i 0) (i 1)) - Ideal.ofBits .f32 0x40000000#32 * Z i

/-- The new spike: whether the new potential exceeds the threshold, as a float. -/
def zNew (X : (⟨3, ![128, 1024, 512]⟩ : Shape).Idx → EReal) (W : (⟨2, ![1024, 512]⟩ : Shape).Idx → EReal)
    (V Z : (⟨2, ![128, 512]⟩ : Shape).Idx → EReal) : (⟨2, ![128, 512]⟩ : Shape).Idx → EReal := fun i =>
  FloatOps.uitofp (F := Ideal) .f32
    (FloatOps.cmpf (F := Ideal) .ogt (vNew X W V Z i - Ideal.ofBits .f32 0x40000000#32) (Ideal.ofBits .f32 0x00000000#32))

/-- A one-bit word widened without sign and read as a signed integer is the bit read as a natural. -/
theorem bit_widened (b : BitVec 1) : (((b.setWidth 32).toInt : ℝ) : EReal) = ((b.toNat : ℝ) : EReal) := by
  have h : ∀ b : BitVec 1, (b.setWidth 32).toInt = (b.toNat : ℤ) := by decide
  rw [h b]; norm_cast

end Cert.Lif

end
-- ==== Proof.Payload.lean ====
/-
  The body's arithmetic read at one element of the [32, 512] output block, over the extended reals.

  One run of 32 input rows multiplies a [32, 32, 512] piece of the `x` block by a [32, 512] piece of `w` laid along
  the batch axis and sums over the middle axis: at (p, q) that is `∑ l < 32, A[p, l, q] · B[l, q]`. The payloads chain
  eight such runs from zero, add the block's running contents, and at the last step of a batch block form
  `(α · v + acc) - θ · z` and the spike from it.
-/
import proofs.«108413_j13022340841819_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Pay

open Cert.KernelIdeal Cert.KernelIdeal.Gen

/-- One run of 32 rows at (p, q): the piece of `w` gains a leading unit axis, is repeated along the batch axis, multiplies
    the piece of `x`, and the middle axis is summed. -/
theorem run32_apply (A : FVec Ideal S32x32x512 .f32) (B : FVec Ideal S32x512 .f32)
    (hc : S32x512.ShapeCasts S1x32x512) (hb : S1x32x512.Broadcasts S32x32x512) (hr : S32x32x512.Reduces [1] S32x512)
    (hφ : FKind.Formats .f32) (hacc : (0x00000000#32 : BitVec 32) = FKind.add.neutral .f32 hφ) (p : Fin 32) (q : Fin 512) :
    multiReduction (F := Ideal) .add [1] S32x512 (mulf A (broadcastTo S32x32x512 (shapeCast S1x32x512 B hc) hb))
        0x00000000#32 hr hφ hacc (ix2 p q)
      = ∑ l : Fin 32, A (ix3 p l q) * B (ix2 l q) := by
  refine (Ideal.multiReduction_add_single _ _ hr hφ hacc (ix2 p q)).trans ?_
  refine Finset.sum_congr rfl fun l _ => ?_
  have hl : hr.lift (ix2 p q) l = ix3 p l q := by
    funext a; apply Fin.ext
    match a with
    | ⟨0, _⟩ => rfl
    | ⟨1, _⟩ => rfl
    | ⟨2, _⟩ => rfl
  rw [hl]
  refine congrArg (A (ix3 p l q) * ·) ?_
  refine (broadcastTo_apply (shapeCast S1x32x512 B hc) hb (ix3 p l q) (ix3 (0 : Fin 1) l q) (fun a => ?_)).trans
    (shapeCast_ab_1ab_apply B hc 0 l q)
  match a with
  | ⟨0, _⟩ => show (0 : ℕ) = if (1 : ℕ) = 1 then 0 else p.val; rw [if_pos rfl]
  | ⟨1, _⟩ => show l.val = if (32 : ℕ) = 1 then 0 else l.val; rw [if_neg (by decide)]
  | ⟨2, _⟩ => show q.val = if (512 : ℕ) = 1 then 0 else q.val; rw [if_neg (by decide)]

/-- The first two runs, from zero. -/
theorem pay4_apply (A0 : FVec Ideal S32x32x512 .f32) (B0 : FVec Ideal S32x512 .f32) (A1 : FVec Ideal S32x32x512 .f32)
    (B1 : FVec Ideal S32x512 .f32) (p : Fin 32) (q : Fin 512) :
    k0_pay4 (F := Ideal) A0 B0 A1 B1 (ix2 p q)
      = (Ideal.ofBits .f32 0x00000000#32 + ∑ l : Fin 32, A0 (ix3 p l q) * B0 (ix2 l q))
        + ∑ l : Fin 32, A1 (ix3 p l q) * B1 (ix2 l q) := by
  unfold k0_pay4
  exact congrArg₂ (· + ·) (congrArg (Ideal.ofBits .f32 0x00000000#32 + ·) (run32_apply A0 B0 _ _ _ _ _ p q))
    (run32_apply A1 B1 _ _ _ _ _ p q)

/-- Three more runs on top of what came before. -/
theorem pay5_apply (acc : FVec Ideal S32x512 .f32) (A2 : FVec Ideal S32x32x512 .f32) (B2 : FVec Ideal S32x512 .f32)
    (A3 : FVec Ideal S32x32x512 .f32) (B3 : FVec Ideal S32x512 .f32) (A4 : FVec Ideal S32x32x512 .f32)
    (B4 : FVec Ideal S32x512 .f32) (p : Fin 32) (q : Fin 512) :
    k0_pay5 (F := Ideal) acc A2 B2 A3 B3 A4 B4 (ix2 p q)
      = ((acc (ix2 p q) + ∑ l : Fin 32, A2 (ix3 p l q) * B2 (ix2 l q))
        + ∑ l : Fin 32, A3 (ix3 p l q) * B3 (ix2 l q)) + ∑ l : Fin 32, A4 (ix3 p l q) * B4 (ix2 l q) := by
  unfold k0_pay5
  exact congrArg₂ (· + ·) (congrArg₂ (· + ·) (congrArg (acc (ix2 p q) + ·) (run32_apply A2 B2 _ _ _ _ _ p q))
    (run32_apply A3 B3 _ _ _ _ _ p q)) (run32_apply A4 B4 _ _ _ _ _ p q)

/-- The last three runs, and the block's running contents `old` added in front. -/
theorem pay6_apply (acc : FVec Ideal S32x512 .f32) (A5 : FVec Ideal S32x32x512 .f32) (B5 : FVec Ideal S32x512 .f32)
    (A6 : FVec Ideal S32x32x512 .f32) (B6 : FVec Ideal S32x512 .f32) (A7 : FVec Ideal S32x32x512 .f32)
    (B7 : FVec Ideal S32x512 .f32) (old : FVec Ideal S32x512 .f32) (p : Fin 32) (q : Fin 512) :
    k0_pay6 (F := Ideal) acc A5 B5 A6 B6 A7 B7 old (ix2 p q)
      = old (ix2 p q) + (((acc (ix2 p q) + ∑ l : Fin 32, A5 (ix3 p l q) * B5 (ix2 l q))
        + ∑ l : Fin 32, A6 (ix3 p l q) * B6 (ix2 l q)) + ∑ l : Fin 32, A7 (ix3 p l q) * B7 (ix2 l q)) := by
  unfold k0_pay6
  refine congrArg₂ (· + ·) (congrFun (shapeCast_self old _) (ix2 p q)) ?_
  exact congrArg₂ (· + ·) (congrArg₂ (· + ·) (congrArg (acc (ix2 p q) + ·) (run32_apply A5 B5 _ _ _ _ _ p q))
    (run32_apply A6 B6 _ _ _ _ _ p q)) (run32_apply A7 B7 _ _ _ _ _ p q)

/-- The new potential from the block of `v`, the accumulated drive and the block of `z`. -/
theorem pay1_apply (v acc z : FVec Ideal S32x512 .f32) (j : S32x512.Idx) :
    k0_pay1 (F := Ideal) v acc z j
      = (Ideal.ofBits .f32 0x3F7EB852#32 * v j + acc j) - Ideal.ofBits .f32 0x40000000#32 * z j := by
  unfold k0_pay1
  exact congrArg (fun u => (Ideal.ofBits .f32 0x3F7EB852#32 * v j + u) - Ideal.ofBits .f32 0x40000000#32 * z j)
    (congrFun (shapeCast_self acc _) j)

/-- The new spike from the same three: the comparison's bit, widened and read as a signed integer. -/
theorem pay2_apply (v acc z : FVec Ideal S32x512 .f32) (j : S32x512.Idx) :
    k0_pay2 (F := Ideal) v acc z j
      = FloatOps.sitofp (F := Ideal) .f32 ((FloatOps.cmpf (F := Ideal) .ogt
          (k0_pay1 (F := Ideal) v acc z j - Ideal.ofBits .f32 0x40000000#32) (Ideal.ofBits .f32 0x00000000#32)).setWidth 32) := by
  unfold k0_pay2
  rfl

end Cert.KernelIdeal.Pay

end
-- ==== Proof.Cases.lean ====
/-
  What the body leaves in the two output blocks in each of its three control cases, as values of the input blocks.

  A grid point (b, k) adds to the [32, 512] output block the products of its [32, 256, 512] block of `x` with rows
  256·k … 256·k + 255 of `w`, eight runs of 32 rows at a time (`accum`). At k = 0 the block is first set to zero; at
  0 < k < 3 the block's contents from the point before are what is added to; at k = 3 the accumulated block is then
  replaced by the new potential and the spike block is stored.
-/
import proofs.«108413_j13022340841819_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- Run `r` of the `x` block: its rows 32·r … 32·r + 31. -/
abbrev xrun (x0 : Vec F S32x256x512 .f32) (r : Fin 8) : Vec F S32x32x512 .f32 :=
  View.ld x0 (Rect.unit (k0_off1 (BitVec.ofNat 32 r.val)) S32x32x512.size (k0_off1_inb r))

/-- Run `r` of `w` at grid coordinates `i`: its rows 256·k + 32·r … + 31, `k` the second coordinate. -/
abbrev wrun (i : grid0.Coords) (x1 : Vec F S1024x512 .f32) (r : Fin 8) : Vec F S32x512 .f32 :=
  View.ld x1 (Rect.unit (k0_off2 i (BitVec.ofNat 32 r.val)) S32x512.size (k0_off2_inb i r))

/-- The block after a point's accumulation: the eight runs chained from zero, added to the contents `old`. -/
def accum (i : grid0.Coords) (x0 : Vec F S32x256x512 .f32) (x1 : Vec F S1024x512 .f32) (old : Vec F S32x512 .f32) :
    FVec F S32x512 .f32 :=
  k0_pay6 (k0_pay5 (k0_pay4 (xrun x0 0) (wrun i x1 0) (xrun x0 1) (wrun i x1 1))
      (xrun x0 2) (wrun i x1 2) (xrun x0 3) (wrun i x1 3) (xrun x0 4) (wrun i x1 4))
    (xrun x0 5) (wrun i x1 5) (xrun x0 6) (wrun i x1 6) (xrun x0 7) (wrun i x1 7) old

/-- An interior reduction step: the block held `xo4`, and holds `xo4` plus the point's runs. -/
theorem out_B (c : Dev nD) (i : grid0.Coords) (arg2 : Memref sig .tc .vmem S32x256x512 .f32) (harg2 : arg2.IsWhole) (arg3 : Memref sig .tc .vmem S1024x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x512 .f32) (harg7 : arg7.IsWhole) (hc0 : ¬cond0_0 i) (hc1 : ¬cond0_1 i)
    (x0 : Vec F S32x256x512 .f32) (x1 : Vec F S1024x512 .f32) (x2 : Vec F S32x512 .f32) (x3 : Vec F S32x512 .f32) (xo4 : Vec F S32x512 .f32) :
    out0_B_4 c i arg2 harg2 arg3 harg3 arg4 harg4 arg5 harg5 arg6 harg6 arg7 harg7 hc0 hc1 x0 x1 x2 x3 xo4 = accum i x0 x1 xo4 := by
  unfold out0_B_4
  rw [View.read_writes_eq_canon _ _ _ (cover0_B_4 c i arg2 harg2 arg3 harg3 arg4 harg4 arg5 harg5 arg6 harg6 arg7 harg7 hc0 hc1 x0 x1 x2 x3 xo4)]
  unfold kernelRun0_B
  dsimp only
  sl_unfold_words
  rw [View.canon_unit_zero hz]
  simp only [View.readAt_eq_ld, harg2.read_unread, harg3.read_unread, harg6.read_unread, View.ld_unit_zero (S := S32x512) hz]
  rfl

/-- The first reduction step: the block is zeroed, read back, and holds zero plus the point's runs. -/
theorem out_A (c : Dev nD) (i : grid0.Coords) (arg2 : Memref sig .tc .vmem S32x256x512 .f32) (harg2 : arg2.IsWhole) (arg3 : Memref sig .tc .vmem S1024x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x512 .f32) (harg7 : arg7.IsWhole) (hc0 : cond0_0 i) (hc1 : ¬cond0_1 i)
    (x0 : Vec F S32x256x512 .f32) (x1 : Vec F S1024x512 .f32) (x2 : Vec F S32x512 .f32) (x3 : Vec F S32x512 .f32) :
    out0_A_4 c i arg2 harg2 arg3 harg3 arg4 harg4 arg5 harg5 arg6 harg6 arg7 harg7 hc0 hc1 x0 x1 x2 x3 = accum i x0 x1 k0_pay3 := by
  unfold out0_A_4
  rw [View.read_writes_eq_canon _ _ _ (cover0_A_4 c i arg2 harg2 arg3 harg3 arg4 harg4 arg5 harg5 arg6 harg6 arg7 harg7 hc0 hc1 x0 x1 x2 x3)]
  unfold kernelRun0_A
  dsimp only
  sl_unfold_words
  rw [View.canon_cons_unit_zero (S := S32x512) hz]
  simp only [View.readAt_eq_ld, harg2.read_unread, harg3.read_unread, View.readCov_unit_zero (S := S32x512) _ hz]
  rfl

/-- The last reduction step, first output: the accumulated block is replaced by the new potential. -/
theorem out_C4 (c : Dev nD) (i : grid0.Coords) (arg2 : Memref sig .tc .vmem S32x256x512 .f32) (harg2 : arg2.IsWhole) (arg3 : Memref sig .tc .vmem S1024x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x512 .f32) (harg7 : arg7.IsWhole) (hc0 : ¬cond0_0 i) (hc1 : cond0_1 i)
    (x0 : Vec F S32x256x512 .f32) (x1 : Vec F S1024x512 .f32) (x2 : Vec F S32x512 .f32) (x3 : Vec F S32x512 .f32) (xo4 : Vec F S32x512 .f32) :
    out0_C_4 c i arg2 harg2 arg3 harg3 arg4 harg4 arg5 harg5 arg6 harg6 arg7 harg7 hc0 hc1 x0 x1 x2 x3 xo4 = k0_pay1 x2 (accum i x0 x1 xo4) x3 := by
  unfold out0_C_4
  rw [View.read_writes_eq_canon _ _ _ (cover0_C_4 c i arg2 harg2 arg3 harg3 arg4 harg4 arg5 harg5 arg6 harg6 arg7 harg7 hc0 hc1 x0 x1 x2 x3 xo4)]
  unfold kernelRun0_C
  dsimp only
  sl_unfold_words
  rw [View.canon_cons_unit_zero (S := S32x512) hz]
  simp only [View.readAt_eq_ld, harg2.read_unread, harg3.read_unread, harg4.read_unread, harg5.read_unread, harg6.read_unread,
    View.ld_unit_zero (S := S32x512) hz, View.readCov_unit_zero (S := S32x512) _ hz]
  rfl

/-- The last reduction step, second output: the spike block. -/
theorem out_C5 (c : Dev nD) (i : grid0.Coords) (arg2 : Memref sig .tc .vmem S32x256x512 .f32) (harg2 : arg2.IsWhole) (arg3 : Memref sig .tc .vmem S1024x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x512 .f32) (harg7 : arg7.IsWhole) (hc0 : ¬cond0_0 i) (hc1 : cond0_1 i)
    (x0 : Vec F S32x256x512 .f32) (x1 : Vec F S1024x512 .f32) (x2 : Vec F S32x512 .f32) (x3 : Vec F S32x512 .f32) (xo4 : Vec F S32x512 .f32) :
    out0_C_5 c i arg2 harg2 arg3 harg3 arg4 harg4 arg5 harg5 arg6 harg6 arg7 harg7 hc0 hc1 x0 x1 x2 x3 xo4 = k0_pay2 x2 (accum i x0 x1 xo4) x3 := by
  unfold out0_C_5
  rw [View.read_writes_eq_canon _ _ _ (cover0_C_5 c i arg2 harg2 arg3 harg3 arg4 harg4 arg5 harg5 arg6 harg6 arg7 harg7 hc0 hc1 x0 x1 x2 x3 xo4)]
  unfold kernelRun0_C
  dsimp only
  sl_unfold_words
  rw [View.canon_unit_zero hz]
  simp only [View.readAt_eq_ld, harg2.read_unread, harg3.read_unread, harg4.read_unread, harg5.read_unread, harg6.read_unread,
    View.ld_unit_zero (S := S32x512) hz, View.readCov_unit_zero (S := S32x512) _ hz]
  rfl

end Cert.KernelIdeal.Acc

end
-- ==== Proof.PointSum.lean ====
/-
  One grid point's accumulation read at an element: the block's old contents plus the 256 products of the point's rows.

  At grid coordinates with second coordinate `k`, element (p, q) of the block after the point is the old element plus
  `∑ n < 256, x0[p, n, q] · w[256·k + n, q]`, `x0` the point's [32, 256, 512] block of `x`: the eight runs of 32 rows
  are one sum of 256, the zero they start from being the neutral element.
-/
import proofs.«108413_j13022340841819_2_alg».proof.Proof.Spec
import proofs.«108413_j13022340841819_2_alg».proof.Proof.Payload
import proofs.«108413_j13022340841819_2_alg».proof.Proof.Cases

noncomputable section

open scoped BigOperators
open Idealize.ShloMosaic Idealize.ShloMosaic.ValueIdx

namespace Cert.KernelIdeal.Acc

open Cert.KernelIdeal Cert.KernelIdeal.Gen Cert.KernelIdeal.Pay Cert.Lif

/-- Product `n` of a point: row `n` of its `x` block times row `256·k + n` of `w` (rows taken modulo the extents, so
    that it is a term at every natural). -/
def bterm (x0 : FVec Ideal S32x256x512 .f32) (x1 : FVec Ideal S1024x512 .f32) (k : ℕ) (p : Fin 32) (q : Fin 512)
    (n : ℕ) : EReal :=
  x0 (ix3 p ⟨n % 256, Nat.mod_lt n (by decide)⟩ q) * x1 (ix2 ⟨(256 * k + n) % 1024, Nat.mod_lt _ (by decide)⟩ q)

/-- Run `r` of the `x` block at (p, l, q) is the block at row `32·r + l`. -/
theorem xrun_apply (x0 : FVec Ideal S32x256x512 .f32) (r : Fin 8) (p : Fin 32) (l : Fin 32) (q : Fin 512) :
    xrun (F := Ideal) x0 r (ix3 p l q) = x0 (ix3 p ⟨(32 * r.val + l.val) % 256, Nat.mod_lt _ (by decide)⟩ q) := by
  have e := k0_off1_eq r
  have hr := r.isLt
  have hl := l.isLt
  show x0 _ = x0 _
  refine congrArg x0 (funext fun a => Fin.ext ?_)
  match a with
  | ⟨0, _⟩ =>
    show (k0_off1 (BitVec.ofNat 32 r.val)) 0 + 1 * p.val = p.val
    rw [e]; show 0 + 1 * p.val = p.val; omega
  | ⟨1, _⟩ =>
    show (k0_off1 (BitVec.ofNat 32 r.val)) 1 + 1 * l.val = (32 * r.val + l.val) % 256
    rw [e]; show 32 * r.val + 1 * l.val = (32 * r.val + l.val) % 256; omega
  | ⟨2, _⟩ =>
    show (k0_off1 (BitVec.ofNat 32 r.val)) 2 + 1 * q.val = q.val
    rw [e]; show 0 + 1 * q.val = q.val; omega

/-- Run `r` of `w` at (l, q) is `w` at row `256·k + 32·r + l`. -/
theorem wrun_apply (i : grid0.Coords) (x1 : FVec Ideal S1024x512 .f32) (r : Fin 8) (l : Fin 32) (q : Fin 512) :
    wrun (F := Ideal) i x1 r (ix2 l q)
      = x1 (ix2 ⟨(256 * (i 1).val + (32 * r.val + l.val)) % 1024, Nat.mod_lt _ (by decide)⟩ q) := by
  have e := k0_off2_eq i r
  have hr := r.isLt
  have hl := l.isLt
  have hk : (i 1).val < 4 := (i 1).isLt
  show x1 _ = x1 _
  refine congrArg x1 (funext fun a => Fin.ext ?_)
  match a with
  | ⟨0, _⟩ =>
    show (k0_off2 i (BitVec.ofNat 32 r.val)) 0 + 1 * l.val = (256 * (i 1).val + (32 * r.val + l.val)) % 1024
    rw [e]; show 256 * (i 1).val + 32 * r.val + 1 * l.val = (256 * (i 1).val + (32 * r.val + l.val)) % 1024; omega
  | ⟨1, _⟩ =>
    show (k0_off2 i (BitVec.ofNat 32 r.val)) 1 + 1 * q.val = q.val
    rw [e]; show 0 + 1 * q.val = q.val; omega

/-- One run's sum is the sum of the point's products `32·r … 32·r + 31`. -/
theorem run_sum (i : grid0.Coords) (x0 : FVec Ideal S32x256x512 .f32) (x1 : FVec Ideal S1024x512 .f32) (r : Fin 8)
    (p : Fin 32) (q : Fin 512) :
    ∑ l : Fin 32, xrun (F := Ideal) x0 r (ix3 p l q) * wrun (F := Ideal) i x1 r (ix2 l q)
      = ∑ l ∈ Finset.range 32, bterm x0 x1 (i 1).val p q (32 * r.val + l) := by
  rw [← Fin.sum_univ_eq_sum_range (fun l => bterm x0 x1 (i 1).val p q (32 * r.val + l)) 32]
  refine Finset.sum_congr rfl fun l _ => ?_
  rw [xrun_apply, wrun_apply]
  rfl

/-- THE POINT'S ACCUMULATION at (p, q): the old element plus the point's 256 products. -/
theorem accum_apply (i : grid0.Coords) (x0 : FVec Ideal S32x256x512 .f32) (x1 : FVec Ideal S1024x512 .f32)
    (old : FVec Ideal S32x512 .f32) (p : Fin 32) (q : Fin 512) :
    accum (F := Ideal) i x0 x1 old (ix2 p q)
      = old (ix2 p q) + ∑ n ∈ Finset.range 256, bterm x0 x1 (i 1).val p q n := by
  unfold accum
  rw [pay6_apply, pay5_apply, pay4_apply]
  rw [run_sum i x0 x1 0 p q, run_sum i x0 x1 1 p q, run_sum i x0 x1 2 p q, run_sum i x0 x1 3 p q,
    run_sum i x0 x1 4 p q, run_sum i x0 x1 5 p q, run_sum i x0 x1 6 p q, run_sum i x0 x1 7 p q]
  rw [Ideal.ofBits_zero_f32]
  exact congrArg (old (ix2 p q) + ·) (eight_runs (bterm x0 x1 (i 1).val p q))

/-- The zero block the first step stores reads zero everywhere. -/
theorem zero_apply (j : S32x512.Idx) : k0_pay3 (F := Ideal) j = 0 := Ideal.ofBits_zero_f32

end Cert.KernelIdeal.Acc

end
-- ==== Proof.Blocks.lean ====
/-
  The windows' blocks at a grid point as reads of the argument arrays, and a point's accumulation in those terms.

  Point `t` of the 4 × 4 grid is (b, k) = (t / 4, t % 4). Its block of `x` is rows 32·b … of the batch axis and rows
  256·k … of the input axis; `w` is held whole; the blocks of `v`, `z` and of both outputs are rows 32·b … of the
  batch axis. So the point adds to element (p, q) of the output block the products of input rows 256·k … 256·k + 255
  for batch row 32·b + p.
-/
import proofs.«108413_j13022340841819_2_alg».proof.Proof.PointSum

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.Lif

variable (m : (ℓ : Loc nD τ sig) → Buf (Elt Ideal) ℓ)

/-- The printed index maps and the reduction coordinate, decided over the grid's sixteen points. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = 0
    ∧ win0_4.index t (0 : Fin 2) = t.val / 4 ∧ win0_4.index t (1 : Fin 2) = 0
    ∧ win0_5.index t (0 : Fin 2) = t.val / 4 ∧ win0_5.index t (1 : Fin 2) = 0
    ∧ ((grid0.coords t) 1).val = t.val % 4 :=
  (by decide +kernel : ∀ t : Fin grid0.N, _)

/-- The block of `x` at point `t`, element (p, n, q): `x` at batch row 32·(t / 4) + p, input row 256·(t % 4) + n. -/
theorem xblk_apply (c : Dev nD) (t : Fin cfg0.N) (p : Fin 32) (n : Fin 256) (q : Fin 512) (r : Fin 128) (j : Fin 1024)
    (hr : r.val = 32 * (t.val / 4) + p.val) (hj : j.val = 256 * (t.val % 4) + n.val) :
    (iblk m c 0 t : Vec Ideal S32x256x512 .f32) (ix3 p n q) = m ((c : Thread nD τ).loc main_arg0) (ix3 r j q) := by
  obtain ⟨e0, e1, e2, -⟩ := idx_facts t
  unfold iblk
  rw [View.read_apply]
  show V m c main_arg0 _ = m (c.tc.loc main_arg0) _
  unfold V
  refine congrArg _ (funext fun a => Fin.ext ?_)
  match a with
  | ⟨0, _⟩ => show win0_0.index t 0 * 32 + 1 * p.val = r.val; rw [e0, hr]; omega
  | ⟨1, _⟩ => show win0_0.index t 1 * 256 + 1 * n.val = j.val; rw [e1, hj]; omega
  | ⟨2, _⟩ => show win0_0.index t 2 * 512 + 1 * q.val = q.val; rw [e2]; omega

/-- The block of `w` at any point is `w`. -/
theorem wblk_apply (c : Dev nD) (t : Fin cfg0.N) (j : Fin 1024) (q : Fin 512) :
    (iblk m c 1 t : Vec Ideal S1024x512 .f32) (ix2 j q) = m ((c : Thread nD τ).loc main_arg1) (ix2 j q) := by
  obtain ⟨-, -, -, e0, e1, -⟩ := idx_facts t
  unfold iblk
  rw [View.read_apply]
  show V m c main_arg1 _ = m (c.tc.loc main_arg1) _
  unfold V
  refine congrArg _ (funext fun a => Fin.ext ?_)
  match a with
  | ⟨0, _⟩ => show win0_1.index t 0 * 1024 + 1 * j.val = j.val; rw [e0]; omega
  | ⟨1, _⟩ => show win0_1.index t 1 * 512 + 1 * q.val = q.val; rw [e1]; omega

/-- The block of `v` at point `t`, element (p, q): `v` at batch row 32·(t / 4) + p. -/
theorem vblk_apply (c : Dev nD) (t : Fin cfg0.N) (p : Fin 32) (q : Fin 512) (r : Fin 128)
    (hr : r.val = 32 * (t.val / 4) + p.val) :
    (iblk m c 2 t : Vec Ideal S32x512 .f32) (ix2 p q) = m ((c : Thread nD τ).loc main_arg2) (ix2 r q) := by
  obtain ⟨-, -, -, -, -, e0, e1, -⟩ := idx_facts t
  unfold iblk
  rw [View.read_apply]
  show V m c main_arg2 _ = m (c.tc.loc main_arg2) _
  unfold V
  refine congrArg _ (funext fun a => Fin.ext ?_)
  match a with
  | ⟨0, _⟩ => show win0_2.index t 0 * 32 + 1 * p.val = r.val; rw [e0, hr]; omega
  | ⟨1, _⟩ => show win0_2.index t 1 * 512 + 1 * q.val = q.val; rw [e1]; omega

/-- The block of `z` at point `t`, element (p, q): `z` at batch row 32·(t / 4) + p. -/
theorem zblk_apply (c : Dev nD) (t : Fin cfg0.N) (p : Fin 32) (q : Fin 512) (r : Fin 128)
    (hr : r.val = 32 * (t.val / 4) + p.val) :
    (iblk m c 3 t : Vec Ideal S32x512 .f32) (ix2 p q) = m ((c : Thread nD τ).loc main_arg3) (ix2 r q) := by
  obtain ⟨-, -, -, -, -, -, -, e0, e1, -⟩ := idx_facts t
  unfold iblk
  rw [View.read_apply]
  show V m c main_arg3 _ = m (c.tc.loc main_arg3) _
  unfold V
  refine congrArg _ (funext fun a => Fin.ext ?_)
  match a with
  | ⟨0, _⟩ => show win0_3.index t 0 * 32 + 1 * p.val = r.val; rw [e0, hr]; omega
  | ⟨1, _⟩ => show win0_3.index t 1 * 512 + 1 * q.val = q.val; rw [e1]; omega

/-- Product `n` of point `t` is row `256·(t % 4) + n` of the drive's sum at batch row 32·(t / 4) + p. -/
theorem bterm_blocks (c : Dev nD) (t : Fin cfg0.N) (p : Fin 32) (q : Fin 512) (r : Fin 128)
    (hr : r.val = 32 * (t.val / 4) + p.val) (n : ℕ) (hn : n < 256) :
    bterm (iblk m c 0 t) (iblk m c 1 t) (t.val % 4) p q n
      = term (m ((c : Thread nD τ).loc main_arg0)) (m ((c : Thread nD τ).loc main_arg1)) r q (256 * (t.val % 4) + n) := by
  unfold bterm term
  refine congrArg₂ (· * ·) (xblk_apply m c t p _ q r _ hr ?_) (wblk_apply m c t _ q)
  show (256 * (t.val % 4) + n) % 1024 = 256 * (t.val % 4) + n % 256
  omega

/-- THE POINT'S ACCUMULATION in the arrays: element (p, q) of the block after point `t` is the old element plus rows
    256·(t % 4) … 256·(t % 4) + 255 of the drive's sum at batch row 32·(t / 4) + p. -/
theorem point_apply (c : Dev nD) (t : Fin cfg0.N) (old : FVec Ideal S32x512 .f32) (p : Fin 32) (q : Fin 512) (r : Fin 128)
    (hr : r.val = 32 * (t.val / 4) + p.val) :
    accum (F := Ideal) (grid0.coords t) (iblk m c 0 t) (iblk m c 1 t) old (ix2 p q)
      = old (ix2 p q) + ∑ n ∈ Finset.range 256,
          term (m ((c : Thread nD τ).loc main_arg0)) (m ((c : Thread nD τ).loc main_arg1)) r q (256 * (t.val % 4) + n) := by
  have ek : ((grid0.coords t) 1).val = t.val % 4 := (idx_facts t).2.2.2.2.2.2.2.2.2.2.2.2.2
  refine (accum_apply (grid0.coords t) (iblk m c 0 t) (iblk m c 1 t) old p q).trans ?_
  rw [ek]
  exact congrArg (old (ix2 p q) + ·)
    (Finset.sum_congr rfl fun n hn => bterm_blocks m c t p q r hr n (Finset.mem_range.mp hn))

end Cert.KernelIdeal.Acc

end
-- ==== Proof.Fold.lean ====
/-
  What the two output blocks hold after the last reduction step of a batch block, element by element.

  The four points (b, 0) … (b, 3) run in order on one staging buffer: the first zeroes it and adds its 256 rows, the next
  two add theirs to what the point before left, and the last adds its rows and then replaces the sum `s` by
  `(α · v + s) - θ · z`. The four partial sums are the drive's 1024 rows taken in four runs of 256, so the block holds the
  new potential of batch rows 32·b … 32·b + 31; the spike block holds the comparison of that value.
-/
import proofs.«108413_j13022340841819_2_alg».proof.Proof.Blocks
import Idealize.ShloMosaic.Lib.Pipeline.Value

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.KernelIdeal.Pay Cert.Lif

variable (m : (ℓ : Loc nD τ sig) → Buf (Elt Ideal) ℓ)

/-- What the first point of a batch block leaves: its rows added to the zero block. -/
def first (c : Dev nD) (n : ℕ) (h : n < cfg0.N) : Vec Ideal S32x512 .f32 :=
  accum (grid0.coords ⟨n, h⟩) (iblk m c 0 ⟨n, h⟩) (iblk m c 1 ⟨n, h⟩) (k0_pay3 (F := Ideal))

/-- What a later point leaves from what the point before left: its rows added, and at the last point of the batch block
    the sum then replaced by the new potential. -/
def step (c : Dev nD) (n : ℕ) (h : n < cfg0.N) (acc : Vec Ideal S32x512 .f32) : Vec Ideal S32x512 .f32 :=
  if n % 4 = 3 then
    k0_pay1 (iblk m c 2 ⟨n, h⟩) (accum (grid0.coords ⟨n, h⟩) (iblk m c 0 ⟨n, h⟩) (iblk m c 1 ⟨n, h⟩) acc) (iblk m c 3 ⟨n, h⟩)
  else accum (grid0.coords ⟨n, h⟩) (iblk m c 0 ⟨n, h⟩) (iblk m c 1 ⟨n, h⟩) acc

/-- At the first point of a batch block the first output's staging buffer holds `first`. -/
theorem outs_reset (c : Dev nD) (n : ℕ) (h : n < cfg0.N) (h0 : n % 4 = 0) : (outsAt0 m c n h).1 = first m c n h := by
  have h1 : ¬n % 4 = 3 := by omega
  rw [outsAt0_A m c ⟨n, h⟩ h0 h1]
  dsimp only
  unfold first
  exact out_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)

/-- At every other point it holds `step` of what the point before left. -/
theorem outs_step (c : Dev nD) (n : ℕ) (h : n + 1 < cfg0.N) (hne : ¬(n + 1) % 4 = 0) :
    (outsAt0 m c (n + 1) h).1 = step m c (n + 1) h (outsAt0 m c n (Nat.lt_of_succ_lt h)).1 := by
  unfold step
  by_cases h3 : (n + 1) % 4 = 3
  · rw [if_pos h3]
    rw [outsAt0_C m c ⟨n + 1, h⟩ hne h3]
    dsimp only
    exact out_C4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hne ((hcond0_0 ⟨n + 1, h⟩).mp hh)) ((hcond0_1 ⟨n + 1, h⟩).mpr h3) (iblk m c 0 ⟨n + 1, h⟩) (iblk m c 1 ⟨n + 1, h⟩) (iblk m c 2 ⟨n + 1, h⟩) (iblk m c 3 ⟨n + 1, h⟩) (outsAt0 m c n (Nat.lt_of_succ_lt h)).1
  · rw [if_neg h3]
    rw [outsAt0_B m c ⟨n + 1, h⟩ hne h3]
    dsimp only
    exact out_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hne ((hcond0_0 ⟨n + 1, h⟩).mp hh)) (fun hh => h3 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c n (Nat.lt_of_succ_lt h)).1

/-- At the last point of a batch block the second output's staging buffer holds the spike block of the same step. -/
theorem outs_spike (c : Dev nD) (n : ℕ) (h : n + 1 < cfg0.N) (hne : ¬(n + 1) % 4 = 0) (h3 : (n + 1) % 4 = 3) :
    (outsAt0 m c (n + 1) h).2
      = k0_pay2 (iblk m c 2 ⟨n + 1, h⟩) (accum (grid0.coords ⟨n + 1, h⟩) (iblk m c 0 ⟨n + 1, h⟩) (iblk m c 1 ⟨n + 1, h⟩)
          (outsAt0 m c n (Nat.lt_of_succ_lt h)).1) (iblk m c 3 ⟨n + 1, h⟩) := by
  rw [outsAt0_C m c ⟨n + 1, h⟩ hne h3]
  dsimp only
  exact out_C5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hne ((hcond0_0 ⟨n + 1, h⟩).mp hh)) ((hcond0_1 ⟨n + 1, h⟩).mpr h3) (iblk m c 0 ⟨n + 1, h⟩) (iblk m c 1 ⟨n + 1, h⟩) (iblk m c 2 ⟨n + 1, h⟩) (iblk m c 3 ⟨n + 1, h⟩) (outsAt0 m c n (Nat.lt_of_succ_lt h)).1

/-- The first point's block at (p, q): zero plus its 256 rows. -/
theorem first_apply (c : Dev nD) (n : ℕ) (h : n < cfg0.N) (p : Fin 32) (q : Fin 512) (r : Fin 128)
    (hr : r.val = 32 * (n / 4) + p.val) :
    first m c n h (ix2 p q) = 0 + ∑ j ∈ Finset.range 256, term (m ((c : Thread nD τ).loc main_arg0)) (m ((c : Thread nD τ).loc main_arg1)) r q (256 * (n % 4) + j) := by
  unfold first
  rw [point_apply m c ⟨n, h⟩ k0_pay3 p q r hr, zero_apply]

/-- A middle point's block at (p, q): the old element plus its 256 rows. -/
theorem step_mid_apply (c : Dev nD) (n : ℕ) (h : n < cfg0.N) (h3 : ¬n % 4 = 3) (acc : Vec Ideal S32x512 .f32)
    (p : Fin 32) (q : Fin 512) (r : Fin 128) (hr : r.val = 32 * (n / 4) + p.val) :
    step m c n h acc (ix2 p q)
      = acc (ix2 p q) + ∑ j ∈ Finset.range 256, term (m ((c : Thread nD τ).loc main_arg0)) (m ((c : Thread nD τ).loc main_arg1)) r q (256 * (n % 4) + j) := by
  unfold step
  rw [if_neg h3, point_apply m c ⟨n, h⟩ acc p q r hr]

/-- The last point's block at (p, q): the leak, plus the old element and its 256 rows, minus the reset. -/
theorem step_last_apply (c : Dev nD) (n : ℕ) (h : n < cfg0.N) (h3 : n % 4 = 3) (acc : Vec Ideal S32x512 .f32)
    (p : Fin 32) (q : Fin 512) (r : Fin 128) (hr : r.val = 32 * (n / 4) + p.val) :
    step m c n h acc (ix2 p q)
      = (Ideal.ofBits .f32 0x3F7EB852#32 * (m ((c : Thread nD τ).loc main_arg2)) (ix2 r q)
          + (acc (ix2 p q) + ∑ j ∈ Finset.range 256, term (m ((c : Thread nD τ).loc main_arg0)) (m ((c : Thread nD τ).loc main_arg1)) r q (256 * (n % 4) + j)))
        - Ideal.ofBits .f32 0x40000000#32 * (m ((c : Thread nD τ).loc main_arg3)) (ix2 r q) := by
  unfold step
  rw [if_pos h3, pay1_apply, point_apply m c ⟨n, h⟩ acc p q r hr, vblk_apply m c ⟨n, h⟩ p q r hr,
    zblk_apply m c ⟨n, h⟩ p q r hr]

/-- THE FIRST OUTPUT after the last point of batch block `b`, at (p, q): the new potential of batch row 32·b + p. -/
theorem vout_apply (c : Dev nD) (b : ℕ) (h : 4 * b + 3 < cfg0.N) (p : Fin 32) (q : Fin 512) (r : Fin 128)
    (hr : r.val = 32 * b + p.val) :
    (outsAt0 m c (4 * b + 3) h).1 (ix2 p q) = vNew (m ((c : Thread nD τ).loc main_arg0)) (m ((c : Thread nD τ).loc main_arg1)) (m ((c : Thread nD τ).loc main_arg2)) (m ((c : Thread nD τ).loc main_arg3)) (ix2 r q) := by
  have hN : cfg0.N = 16 := N_0
  refine (congrFun (Pipeline.eq_accAt (fun n h => (outsAt0 m c n h).1) 4 (first m c) (step m c) (outs_reset m c)
    (outs_step m c) b 3 (by decide) h) (ix2 p q)).trans ?_
  show step m c (4 * b + 3) h (step m c (4 * b + 2) _ (step m c (4 * b + 1) _ (first m c (4 * b) _))) (ix2 p q) = _
  rw [step_last_apply m c (4 * b + 3) _ (by omega) _ p q r (by omega),
    step_mid_apply m c (4 * b + 2) _ (by omega) _ p q r (by omega),
    step_mid_apply m c (4 * b + 1) _ (by omega) _ p q r (by omega),
    first_apply m c (4 * b) _ p q r (by omega)]
  rw [show (4 * b + 3) % 4 = 3 from by omega, show (4 * b + 2) % 4 = 2 from by omega,
    show (4 * b + 1) % 4 = 1 from by omega, show (4 * b) % 4 = 0 from by omega]
  unfold vNew drive
  rw [← four_runs (term (m ((c : Thread nD τ).loc main_arg0)) (m ((c : Thread nD τ).loc main_arg1)) r q)]

/-- THE SECOND OUTPUT after the last point of batch block `b`, at (p, q): the new spike of batch row 32·b + p. -/
theorem zout_apply (c : Dev nD) (b : ℕ) (h : 4 * b + 3 < cfg0.N) (p : Fin 32) (q : Fin 512) (r : Fin 128)
    (hr : r.val = 32 * b + p.val) :
    (outsAt0 m c (4 * b + 3) h).2 (ix2 p q) = zNew (m ((c : Thread nD τ).loc main_arg0)) (m ((c : Thread nD τ).loc main_arg1)) (m ((c : Thread nD τ).loc main_arg2)) (m ((c : Thread nD τ).loc main_arg3)) (ix2 r q) := by
  have hne : ¬(4 * b + 2 + 1) % 4 = 0 := by omega
  have h3 : (4 * b + 2 + 1) % 4 = 3 := by omega
  have e1 := outs_step m c (4 * b + 2) h hne
  unfold step at e1
  rw [if_pos h3] at e1
  rw [outs_spike m c (4 * b + 2) h hne h3, pay2_apply, ← e1, vout_apply m c b h p q r hr]
  unfold zNew
  exact bit_widened _

end Cert.KernelIdeal.Acc

end
-- ==== Proof.KernelRun.lean ====
/-
  The idealized kernel's run, read: its two result arrays are the new potentials and the new spikes of the arguments.

  Each output block is written back once, after the last reduction step of its batch block, and what is written is the
  block of the update's whole-array function (`Cert.Lif.vNew`, `Cert.Lif.zNew`) at batch rows 32·b … 32·b + 31; the
  four batch blocks cover the 128 rows, so each result array ends holding that function of the argument arrays.
-/
import proofs.«108413_j13022340841819_2_alg».proof.Proof.Gen.KernelIdeal.Value
import proofs.«108413_j13022340841819_2_alg».proof.Proof.Fold

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Lif

variable (m : (ℓ : Loc nD τ sig) → Buf (Elt Ideal) ℓ) (ρ : Dev nD → PrngReg)

/-- The staging buffers' contents after a point depend on the point's number only. -/
theorem outs_congr (c : Dev nD) (n n' : ℕ) (h : n < cfg0.N) (h' : n' < cfg0.N) (e : n = n') :
    outsAt0 m c n h = outsAt0 m c n' h' := by
  subst e; rfl

/-- An index of the first result array is in point `t`'s block iff each coordinate is in the block's range on its axis. -/
theorem mem_blk4 (t : Fin cfg0.N) (i : S128x512.Idx) :
    i ∈ ((cfg0.win 4).blk t).view.set ↔ ∀ a : Fin 2, win0_4.index t a * S32x512.size a ≤ (i a).val
      ∧ (i a).val < win0_4.index t a * S32x512.size a + S32x512.size a := by
  show i ∈ ((View.whole main_v0_0).slice (win0_4.rect t)).set ↔ _
  rw [View.set_slice_whole, Rect.mem_set_unit]
  exact Iff.rfl

/-- The same for the second result array. -/
theorem mem_blk5 (t : Fin cfg0.N) (i : S128x512.Idx) :
    i ∈ ((cfg0.win 5).blk t).view.set ↔ ∀ a : Fin 2, win0_5.index t a * S32x512.size a ≤ (i a).val
      ∧ (i a).val < win0_5.index t a * S32x512.size a + S32x512.size a := by
  show i ∈ ((View.whole main_v0_1).slice (win0_5.rect t)).set ↔ _
  rw [View.set_slice_whole, Rect.mem_set_unit]
  exact Iff.rfl

/-- What a write-back of the first output writes is its block of the new potentials. -/
theorem flushed4_eq (c : Dev nD) (t : Fin cfg0.N) (hf : (cfg0.win 4).flush t = true) :
    (dats m 0 c).flushed 4 t = ((cfg0.win 4).blk t).view.read (Elt Ideal) (vNew (m ((c : Thread nD τ).loc main_arg0)) (m ((c : Thread nD τ).loc main_arg1)) (m ((c : Thread nD τ).loc main_arg2)) (m ((c : Thread nD τ).loc main_arg3))) := by
  have hN : cfg0.N = 16 := N_0
  have h3 : t.val % 4 = 3 := (flush0_4 t).mp hf
  have ht := t.isLt
  have e0 : win0_4.index t (0 : Fin 2) = t.val / 4 := (idx_facts t).2.2.2.2.2.2.2.2.2.1
  have e1 : win0_4.index t (1 : Fin 2) = 0 := (idx_facts t).2.2.2.2.2.2.2.2.2.2.1
  rw [Cert.KernelIdeal.Value.flushed4]
  funext y
  obtain ⟨p, q, rfl⟩ : ∃ (p : Fin 32) (q : Fin 512), y = ix2 p q := ⟨y 0, y 1, eq_ix2 y⟩
  have hp := p.isLt
  show (outsAt0 m c t.val t.isLt).1 (ix2 p q) = (vNew (m ((c : Thread nD τ).loc main_arg0)) (m ((c : Thread nD τ).loc main_arg1)) (m ((c : Thread nD τ).loc main_arg2)) (m ((c : Thread nD τ).loc main_arg3))) (((cfg0.win 4).blk t).view.emb (ix2 p q))
  rw [outs_congr m c t.val (4 * (t.val / 4) + 3) t.isLt (by omega) (by omega),
    vout_apply m c (t.val / 4) (by omega) p q ⟨32 * (t.val / 4) + p.val, by omega⟩ rfl]
  refine congrArg _ (funext fun a => Fin.ext ?_)
  match a with
  | ⟨0, _⟩ => show 32 * (t.val / 4) + p.val = win0_4.index t (0 : Fin 2) * 32 + 1 * p.val; rw [e0]; omega
  | ⟨1, _⟩ => show q.val = win0_4.index t (1 : Fin 2) * 512 + 1 * q.val; rw [e1]; omega

/-- What a write-back of the second output writes is its block of the new spikes. -/
theorem flushed5_eq (c : Dev nD) (t : Fin cfg0.N) (hf : (cfg0.win 5).flush t = true) :
    (dats m 0 c).flushed 5 t = ((cfg0.win 5).blk t).view.read (Elt Ideal) (zNew (m ((c : Thread nD τ).loc main_arg0)) (m ((c : Thread nD τ).loc main_arg1)) (m ((c : Thread nD τ).loc main_arg2)) (m ((c : Thread nD τ).loc main_arg3))) := by
  have hN : cfg0.N = 16 := N_0
  have h3 : t.val % 4 = 3 := (flush0_5 t).mp hf
  have ht := t.isLt
  have e0 : win0_5.index t (0 : Fin 2) = t.val / 4 := (idx_facts t).2.2.2.2.2.2.2.2.2.2.2.1
  have e1 : win0_5.index t (1 : Fin 2) = 0 := (idx_facts t).2.2.2.2.2.2.2.2.2.2.2.2.1
  rw [Cert.KernelIdeal.Value.flushed5]
  funext y
  obtain ⟨p, q, rfl⟩ : ∃ (p : Fin 32) (q : Fin 512), y = ix2 p q := ⟨y 0, y 1, eq_ix2 y⟩
  have hp := p.isLt
  show (outsAt0 m c t.val t.isLt).2 (ix2 p q) = (zNew (m ((c : Thread nD τ).loc main_arg0)) (m ((c : Thread nD τ).loc main_arg1)) (m ((c : Thread nD τ).loc main_arg2)) (m ((c : Thread nD τ).loc main_arg3))) (((cfg0.win 5).blk t).view.emb (ix2 p q))
  rw [outs_congr m c t.val (4 * (t.val / 4) + 3) t.isLt (by omega) (by omega),
    zout_apply m c (t.val / 4) (by omega) p q ⟨32 * (t.val / 4) + p.val, by omega⟩ rfl]
  refine congrArg _ (funext fun a => Fin.ext ?_)
  match a with
  | ⟨0, _⟩ => show 32 * (t.val / 4) + p.val = win0_5.index t (0 : Fin 2) * 32 + 1 * p.val; rw [e0]; omega
  | ⟨1, _⟩ => show q.val = win0_5.index t (1 : Fin 2) * 512 + 1 * q.val; rw [e1]; omega

/-- The first result array after the run: the new potentials. -/
theorem final4 (c : Dev nD) : (dats m 0 c).arrAt 4 cfg0.N = (vNew (m ((c : Thread nD τ).loc main_arg0)) (m ((c : Thread nD τ).loc main_arg1)) (m ((c : Thread nD τ).loc main_arg2)) (m ((c : Thread nD τ).loc main_arg3))) :=
  (dats m 0 c).arrAt_eq_of_cover 4 (vNew (m ((c : Thread nD τ).loc main_arg0)) (m ((c : Thread nD τ).loc main_arg1)) (m ((c : Thread nD τ).loc main_arg2)) (m ((c : Thread nD τ).loc main_arg3))) (flushed4_eq m c) fun i => by
    have hN : cfg0.N = 16 := N_0
    have hi0 : (i 0).val < 128 := (i 0).isLt
    have hi1 : (i 1).val < 512 := (i 1).isLt
    have ht : 4 * ((i 0).val / 32) + 3 < cfg0.N := by omega
    refine ⟨⟨4 * ((i 0).val / 32) + 3, ht⟩, (flush0_4 _).mpr (by show (4 * ((i 0).val / 32) + 3) % 4 = 3; omega), ?_⟩
    have e0 : win0_4.index ⟨4 * ((i 0).val / 32) + 3, ht⟩ (0 : Fin 2) = (4 * ((i 0).val / 32) + 3) / 4 := (idx_facts ⟨4 * ((i 0).val / 32) + 3, ht⟩).2.2.2.2.2.2.2.2.2.1
    have e1 : win0_4.index ⟨4 * ((i 0).val / 32) + 3, ht⟩ (1 : Fin 2) = 0 := (idx_facts ⟨4 * ((i 0).val / 32) + 3, ht⟩).2.2.2.2.2.2.2.2.2.2.1
    rw [mem_blk4]
    intro a
    match a with
    | ⟨0, _⟩ =>
      show win0_4.index ⟨4 * ((i 0).val / 32) + 3, ht⟩ (0 : Fin 2) * 32 ≤ (i 0).val
        ∧ (i 0).val < win0_4.index ⟨4 * ((i 0).val / 32) + 3, ht⟩ (0 : Fin 2) * 32 + 32
      rw [e0]; omega
    | ⟨1, _⟩ =>
      show win0_4.index ⟨4 * ((i 0).val / 32) + 3, ht⟩ (1 : Fin 2) * 512 ≤ (i 1).val
        ∧ (i 1).val < win0_4.index ⟨4 * ((i 0).val / 32) + 3, ht⟩ (1 : Fin 2) * 512 + 512
      rw [e1]; omega

/-- The second result array after the run: the new spikes. -/
theorem final5 (c : Dev nD) : (dats m 0 c).arrAt 5 cfg0.N = (zNew (m ((c : Thread nD τ).loc main_arg0)) (m ((c : Thread nD τ).loc main_arg1)) (m ((c : Thread nD τ).loc main_arg2)) (m ((c : Thread nD τ).loc main_arg3))) :=
  (dats m 0 c).arrAt_eq_of_cover 5 (zNew (m ((c : Thread nD τ).loc main_arg0)) (m ((c : Thread nD τ).loc main_arg1)) (m ((c : Thread nD τ).loc main_arg2)) (m ((c : Thread nD τ).loc main_arg3))) (flushed5_eq m c) fun i => by
    have hN : cfg0.N = 16 := N_0
    have hi0 : (i 0).val < 128 := (i 0).isLt
    have hi1 : (i 1).val < 512 := (i 1).isLt
    have ht : 4 * ((i 0).val / 32) + 3 < cfg0.N := by omega
    refine ⟨⟨4 * ((i 0).val / 32) + 3, ht⟩, (flush0_5 _).mpr (by show (4 * ((i 0).val / 32) + 3) % 4 = 3; omega), ?_⟩
    have e0 : win0_5.index ⟨4 * ((i 0).val / 32) + 3, ht⟩ (0 : Fin 2) = (4 * ((i 0).val / 32) + 3) / 4 := (idx_facts ⟨4 * ((i 0).val / 32) + 3, ht⟩).2.2.2.2.2.2.2.2.2.2.2.1
    have e1 : win0_5.index ⟨4 * ((i 0).val / 32) + 3, ht⟩ (1 : Fin 2) = 0 := (idx_facts ⟨4 * ((i 0).val / 32) + 3, ht⟩).2.2.2.2.2.2.2.2.2.2.2.2.1
    rw [mem_blk5]
    intro a
    match a with
    | ⟨0, _⟩ =>
      show win0_5.index ⟨4 * ((i 0).val / 32) + 3, ht⟩ (0 : Fin 2) * 32 ≤ (i 0).val
        ∧ (i 0).val < win0_5.index ⟨4 * ((i 0).val / 32) + 3, ht⟩ (0 : Fin 2) * 32 + 32
      rw [e0]; omega
    | ⟨1, _⟩ =>
      show win0_5.index ⟨4 * ((i 0).val / 32) + 3, ht⟩ (1 : Fin 2) * 512 ≤ (i 1).val
        ∧ (i 1).val < win0_5.index ⟨4 * ((i 0).val / 32) + 3, ht⟩ (1 : Fin 2) * 512 + 512
      rw [e1]; omega

/-- The run, read: both result arrays at the update of the arguments, the arguments unchanged. -/
theorem run : θ_run defs (onTc (τ := τ) (main (F := Ideal))) ⟨m, fun _ => 0, ρ⟩ fun r => ∀ c : Dev nD,
      r.2.mem ((c : Thread nD τ).loc main_v0_0) = (vNew (m ((c : Thread nD τ).loc main_arg0)) (m ((c : Thread nD τ).loc main_arg1)) (m ((c : Thread nD τ).loc main_arg2)) (m ((c : Thread nD τ).loc main_arg3)))
      ∧ r.2.mem ((c : Thread nD τ).loc main_v0_1) = (zNew (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.KernelIdeal.Acc

end
-- ==== Proof.RefValue.lean ====
/-
  The reference's two results, at the ideal instance, are the update's whole-array functions of its arguments.

  Read one operation at a time, the first result at (r, q) is `(α · v[r, q] + (0 + ∑ k, x[r, k, q] · w[k, q])) - θ · z[r, q]`
  with `w` broadcast along the batch axis, and the second is the comparison of that value minus `θ` with zero, converted
  to a float: the zero the host's sum starts from is neutral, and the sum over the rows is the drive.
-/
import proofs.«108413_j13022340841819_2_alg».proof.Proof.Gen.ReferenceIdeal.Read
import proofs.«108413_j13022340841819_2_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read Cert.Lif

/-- The host's sum over the input rows at (r, q), from zero, is the drive. -/
theorem drive_ref (x0 : FVec Ideal S128x1024x512 .f32) (x1 : FVec Ideal S1024x512 .f32) (r : Fin 128) (q : Fin 512) :
    (val_main_cst_0 (F := Ideal)) (Shape.Idx.first h_S_)
        + ∑ k : Fin 1024, (val_main_v4 (F := Ideal) x0 x1) (idx_main_v5 (ix2 r q) k)
      = drive x0 x1 r q := by
  rw [val_main_cst_0_apply, Ideal.ofBits_def, Ideal.ofBits_zero_f32, zero_add, ← sum_rows_eq_drive]
  refine Finset.sum_congr rfl fun k _ => ?_
  have e1 : idx_main_v5 (ix2 r q) k = ix3 r k q :=
    funext fun a => Fin.ext (by match a with | ⟨0, _⟩ => rfl | ⟨1, _⟩ => rfl | ⟨2, _⟩ => rfl)
  have e2 : idx_main_v2 (idx_main_v3 (ix3 r k q)) = ix2 k q :=
    funext fun a => Fin.ext (by match a with | ⟨0, _⟩ => rfl | ⟨1, _⟩ => rfl)
  rw [val_main_v4_apply, val_main_v3_apply, val_main_v2_apply, e1, e2]
  rfl

/-- The first result is the new potential. -/
theorem v9_eq (x0 : FVec Ideal S128x1024x512 .f32) (x1 : FVec Ideal S1024x512 .f32) (x2 x3 : FVec Ideal S128x512 .f32) :
    val_main_v9 (F := Ideal) x0 x1 x2 x3 = vNew x0 x1 x2 x3 := by
  funext i
  obtain ⟨r, q, rfl⟩ : ∃ (r : Fin 128) (q : Fin 512), i = ix2 r q := ⟨i 0, i 1, eq_ix2 i⟩
  rw [val_main_v9_apply, val_main_v6_apply, val_main_v1_apply, val_main_v0_apply, val_main_cst_apply,
    val_main_v5_apply, drive_ref, val_main_v8_apply, val_main_v7_apply, val_main_cst_1_apply]
  rfl

/-- The second result is the new spike. -/
theorem v14_eq (x0 : FVec Ideal S128x1024x512 .f32) (x1 : FVec Ideal S1024x512 .f32) (x2 x3 : FVec Ideal S128x512 .f32) :
    val_main_v14 (F := Ideal) x0 x1 x2 x3 = zNew x0 x1 x2 x3 := by
  funext i
  rw [val_main_v14_apply, val_main_v13_apply, val_main_v11_apply, val_main_v10_apply, val_main_cst_2_apply,
    val_main_v12_apply, val_main_cst_3_apply, v9_eq]
  rfl

end Cert.ReferenceIdeal.RefValue

end
-- ==== Proof.lean ====
/-
  The certificate of the leaky integrate-and-fire membrane update: a Pallas kernel that tiles the batch axis in four
  blocks of 32 rows and the 1024 input rows in four reduction steps of 256, each taken in eight runs of 32, against the
  plain `α · v + ∑ᵢ x[·, i, ·] · w[i, ·] - θ · z` and its threshold.

  Over the extended reals both programs compute, for every batch row `r` and neuron `q`,
  `(α · v[r, q] + ∑ j < 1024, x[r, j, q] · w[j, q]) - θ · z[r, q]` and the indicator of that value exceeding `θ`
  (`Cert.Lif.vNew`, `Cert.Lif.zNew`): the kernel adds the 1024 products in thirty-two runs starting from zero, the
  reference in one sum starting from zero, and addition of extended reals is associative with `0` neutral; the two
  constants are the same words in both programs; the kernel converts the comparison's bit through a 32-bit integer, the
  reference directly, and both read 0 or 1. No finiteness of the inputs is used. The three frames are the generated frame
  runs and the reference's generated run; the idealization rewrote nothing.
-/
import proofs.«108413_j13022340841819_2_alg».proof.Defs
import proofs.«108413_j13022340841819_2_alg».proof.Proof.Gen.Kernel
import proofs.«108413_j13022340841819_2_alg».proof.Proof.Gen.Kernel.Skeleton
import proofs.«108413_j13022340841819_2_alg».proof.Proof.Gen.Kernel.Launch
import proofs.«108413_j13022340841819_2_alg».proof.Proof.Gen.Kernel.Points
import proofs.«108413_j13022340841819_2_alg».proof.Proof.Gen.Kernel.Frame
import proofs.«108413_j13022340841819_2_alg».proof.Proof.Gen.KernelIdeal
import proofs.«108413_j13022340841819_2_alg».proof.Proof.Gen.KernelIdeal.Skeleton
import proofs.«108413_j13022340841819_2_alg».proof.Proof.Gen.KernelIdeal.Launch
import proofs.«108413_j13022340841819_2_alg».proof.Proof.Gen.KernelIdeal.Points
import proofs.«108413_j13022340841819_2_alg».proof.Proof.Gen.KernelIdeal.Frame
import proofs.«108413_j13022340841819_2_alg».proof.Proof.Gen.ReferenceIdeal
import proofs.«108413_j13022340841819_2_alg».proof.Proof.Gen.Pre_finite_inputs
import proofs.«108413_j13022340841819_2_alg».proof.Proof.Gen.KernelIdeal.Value
import proofs.«108413_j13022340841819_2_alg».proof.Proof.Gen.ReferenceIdeal.Run
import proofs.«108413_j13022340841819_2_alg».proof.Proof.Gen.ReferenceIdeal.Read
import proofs.«108413_j13022340841819_2_alg».proof.Proof.KernelRun
import proofs.«108413_j13022340841819_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- At the ideal instance the kernel's two result arrays end at the new potentials and the new spikes of its arguments
    (its run, read) and the reference's at the same two functions of arguments that agree (its run, read one operation at
    a time). -/
theorem algebraic : Cert.algebraic_KernelIdeal_ReferenceIdeal := by
  intro m ρ m' ρ' _ hagree
  refine ⟨fun c => Cert.Lif.vNew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Lif.zNew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Acc.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v9_eq, Cert.ReferenceIdeal.RefValue.v9_eq, (hagree c).1, (hagree c).2.1,
      (hagree c).2.2.1, (hagree c).2.2.2]
  · rw [Cert.ReferenceIdeal.Read.val_main_v14_eq, Cert.ReferenceIdeal.RefValue.v14_eq, (hagree c).1, (hagree c).2.1,
      (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
